-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S1600000 32) (main_arg2 : IVec S1600000 32) (main_arg3 : FVec F S64x64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1600000x65 : Shape := ⟨2, ![1600000, 65]⟩
abbrev S100000x65 : Shape := ⟨2, ![100000, 65]⟩
abbrev S100000x1 : Shape := ⟨2, ![100000, 1]⟩
abbrev S1x64 : Shape := ⟨2, ![1, 64]⟩
abbrev S4000x64 : Shape := ⟨2, ![4000, 64]⟩
abbrev S4000x1 : Shape := ⟨2, ![4000, 1]⟩

abbrev nBuf : Space → Nat
  | .hbm => 26
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S_, .f32⟩
  | .hbm, ⟨16, _⟩ => ⟨S1600000x1, .f32⟩
  | .hbm, ⟨17, _⟩ => ⟨S1600000x65, .f32⟩
  | .hbm, ⟨18, _⟩ => ⟨S_, .f32⟩
  | .hbm, ⟨19, _⟩ => ⟨S100000x65, .f32⟩
  | .hbm, ⟨20, _⟩ => ⟨S1600000x1, .i32⟩
  | .hbm, ⟨21, _⟩ => ⟨S100000x65, .f32⟩
  | .hbm, ⟨22, _⟩ => ⟨S100000x64, .f32⟩
  | .hbm, ⟨23, _⟩ => ⟨S100000x1, .f32⟩
  | .hbm, ⟨24, _⟩ => ⟨S1x64, .f32⟩
  | .hbm, ⟨25, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x1, .f32⟩
  | .local _ .vmem, ⟨5, _⟩ => ⟨S4000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S4000x64, .f32⟩
  | .local _ .vmem, ⟨10, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  concatenates_S1600000x64_S1600000x1_S1600000x65_d1 : Shape.Concatenates [S1600000x64, S1600000x1] S1600000x65 1
  bcast_S_S100000x65 : S_.BroadcastsInDim S100000x65 (![] : Fin 0 → Fin S100000x65.rank)
  slices_S100000x65_S100000x64_0_0 : S100000x65.Slices ![0, 0] S100000x64
  slices_S100000x65_S100000x1_0_64 : S100000x65.Slices ![0, 64] S100000x1
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  gather_S100000x64_S1600000x1_S1600000x64_1_0_n_n_0_1_164_wf : GatherDims.WF S100000x64 S1600000x1 S1600000x64 [1] [0] [] [0] [] 1 ![1, 64]
  scatter_S100000x65_S1600000x1_S1600000x65_1_0_0_1_wf : ScatterDims.WF S100000x65 S1600000x1 S1600000x65 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .f32 = 32 ∨ (Rect.block (s := S100000x64) S4000x64.size (cc0_transform_6 i) (hinb0_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x65_S1600000x1_S1600000x65_1_0_0_1 : ScatterDims S100000x65 S1600000x1 S1600000x65 where
  updateWindowDims := [1]
  insertedWindowDims := [0]
  scatterDimsToOperandDims := [0]
  indexVectorDim := 1
  wf := scatter_S100000x65_S1600000x1_S1600000x65_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 40
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S_, .f32⟩
  | .hbm, ⟨16, _⟩ => ⟨S100000x64, .f32⟩
  | .hbm, ⟨17, _⟩ => ⟨S1600000x1, .i32⟩
  | .hbm, ⟨18, _⟩ => ⟨S100000x64, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_cst : Ref sig .tc := ⟨.hbm, 37, rfl⟩
abbrev main_call0_v0 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibScatterAdd.lean ====
/-
  An additive scatter of rows, read at one element.

  The host's accumulating scatter `x.at[idx].add(upd)` at the ideal instance is, at each element of the operand, that
  element plus the sum of the update elements whose destination is that element. For the two layouts a segment sum
  lowers to this file computes the destination and turns the sum over "updates that land here" into a sum over the
  update ROWS guarded by "this row's index word is my row":

  * rows: operand `[N, C]`, one index word per update row (indices `[E, 1]`), updates `[E, C]`. Update `(e, c)`
    lands on `(idx e, c)` when `0 ≤ idx e < N` (the word read signed, nothing clamped) and is dropped otherwise. So
    element `(n, k)` receives `∑ e, [idx e = n] · upd (e, k)`: only column `k` of the updates reaches column `k`.
  * scalars: operand `[N]`, indices `[E, 1]`, updates `[E]`. Update `e` lands on `idx e`; element `n`
    receives `∑ e, [idx e = n] · upd e`.

  Nothing here needs the summands to be finite: the sums are only re-indexed.
-/
import Idealize.ShloMosaic.PureOps.Ideal
import Idealize.ShloMosaic.Lib.ValueIdx

noncomputable section

open scoped BigOperators

namespace Idealize.ShloMosaic.ScatterAddAt

open Idealize.ShloMosaic Idealize.ShloMosaic.ValueIdx

/-! ## Rows: operand `[N, C]`, indices `[E, 1]`, updates `[E, C]` -/

section Rows
variable {N C E w : Nat}

/-- The dimension numbers of a row scatter: the updates' axis 1 is the window axis and goes to the operand's axis 1, the
    operand's axis 0 is the one the index word addresses, the index vector is the indices' axis 1 (of extent one). -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- The index word of update row `e`. -/
abbrev rowWord (idx : IVec ⟨2, ![E, 1]⟩ w) (e : Fin E) : Int := (idx (ix2 e ⟨0, Nat.one_pos⟩)).toInt

/-- On the addressed axis the window starts at the update row's index word, read signed. -/
theorem rowDims_start0 (j : (⟨2, ![E, C]⟩ : Shape).Idx) (idx : IVec ⟨2, ![E, 1]⟩ w) :
    (rowDims N C E wf).start j idx 0 = rowWord idx (j 0) := by
  unfold ScatterDims.start
  rw [dif_pos (show (0 : Fin 2) ∈ (rowDims N C E wf).scatterDimsToOperandDims from List.mem_singleton.mpr rfl)]
  have hsi : (rowDims N C E wf).siIdx j ⟨List.idxOf (0 : Fin 2) (rowDims N C E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the window axis the window starts at zero. -/
theorem rowDims_start1 (j : (⟨2, ![E, C]⟩ : Shape).Idx) (idx : IVec ⟨2, ![E, 1]⟩ w) :
    (rowDims N C E wf).start j idx 1 = 0 := by
  unfold ScatterDims.start
  rw [dif_neg (show ¬ (1 : Fin 2) ∈ (rowDims N C E wf).scatterDimsToOperandDims from by simp)]

/-- The addressed axis has no window coordinate. -/
theorem rowDims_window0 (j : (⟨2, ![E, C]⟩ : Shape).Idx) : (rowDims N C E wf).window j 0 = 0 := by
  unfold ScatterDims.window
  rw [dif_neg (show ¬ (0 : Fin 2) ∈ (rowDims N C E wf).sKept from by simp [ScatterDims.sKept, Shape.kept])]

/-- The window coordinate on the operand's axis 1 is the update's column. -/
theorem rowDims_window1 (j : (⟨2, ![E, C]⟩ : Shape).Idx) : (rowDims N C E wf).window j 1 = (j 1).val := by
  unfold ScatterDims.window
  rw [dif_pos (show (1 : Fin 2) ∈ (rowDims N C E wf).sKept from by simp [ScatterDims.sKept, Shape.kept])]
  rfl

/-- WHERE AN UPDATE LANDS: update `j = (e, c)` lands on operand element `i` exactly when row `e`'s index word is
    `i`'s row and `c` is `i`'s column. (A word outside `[0, N)` is no row: the update is dropped.) -/
theorem rowDims_resultIdx_eq_some_iff (j : (⟨2, ![E, C]⟩ : Shape).Idx) (idx : IVec ⟨2, ![E, 1]⟩ w)
    (i : (⟨2, ![N, C]⟩ : Shape).Idx) :
    (rowDims N C E wf).resultIdx? j idx = some i ↔ rowWord idx (j 0) = ((i 0).val : Int) ∧ (j 1).val = (i 1).val := by
  have hi0 := idx2_lt0 i
  have hi1 := idx2_lt1 i
  have hj1 := idx2_lt1 j
  unfold ScatterDims.resultIdx?
  split
  · next h =>
    rw [Option.some.injEq]
    have h0 := h 0
    rw [rowDims_start0, rowDims_window0] at h0
    constructor
    · intro hi
      have e0 : ((rowDims N C E wf).start j idx 0 + ((rowDims N C E wf).window j 0 : Int)).toNat = (i 0).val :=
        congrArg (fun f => (f 0).val) hi
      have e1 : ((rowDims N C E wf).start j idx 1 + ((rowDims N C E wf).window j 1 : Int)).toNat = (i 1).val :=
        congrArg (fun f => (f 1).val) hi
      rw [rowDims_start0, rowDims_window0] at e0
      rw [rowDims_start1, rowDims_window1] at e1
      omega
    · intro ⟨e0, e1⟩
      funext a
      refine Fin.ext ?_
      match a with
      | ⟨0, _⟩ =>
        show ((rowDims N C E wf).start j idx 0 + ((rowDims N C E wf).window j 0 : Int)).toNat = (i 0).val
        rw [rowDims_start0, rowDims_window0]; omega
      | ⟨1, _⟩ =>
        show ((rowDims N C E wf).start j idx 1 + ((rowDims N C E wf).window j 1 : Int)).toNat = (i 1).val
        rw [rowDims_start1, rowDims_window1]; omega
  · next h =>
    constructor
    · intro hn; cases hn
    · intro ⟨e0, e1⟩
      refine absurd (fun a => ?_) h
      match a with
      | ⟨0, _⟩ =>
        show 0 ≤ (rowDims N C E wf).start j idx 0 + ((rowDims N C E wf).window j 0 : Int)
          ∧ (rowDims N C E wf).start j idx 0 + ((rowDims N C E wf).window j 0 : Int) < ((N : Nat) : Int)
        rw [rowDims_start0, rowDims_window0]; omega
      | ⟨1, _⟩ =>
        show 0 ≤ (rowDims N C E wf).start j idx 1 + ((rowDims N C E wf).window j 1 : Int)
          ∧ (rowDims N C E wf).start j idx 1 + ((rowDims N C E wf).window j 1 : Int) < ((C : Nat) : Int)
        rw [rowDims_start1, rowDims_window1]; omega

/-- THE ROW SCATTER READ AT `(n, k)`: the operand's element plus, over the update rows whose index word is `n`, their
    column-`k` entries. -/
theorem rowScatterAdd_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowDims N C E wf) x idx upd (ix2 n k)
      = x (ix2 n k) + ∑ e : Fin E, if rowWord idx e = (n.val : Int) then upd (ix2 e k) else 0 := by
  unfold Ideal.hostScatterAdd
  congr 1
  rw [Finset.sum_filter, sum_idx2]
  refine Finset.sum_congr rfl fun e _ => ?_
  simp only [rowDims_resultIdx_eq_some_iff]
  by_cases hc : rowWord idx e = (n.val : Int)
  · rw [if_pos hc, Finset.sum_eq_single k]
    · exact if_pos ⟨hc, rfl⟩
    · intro b _ hb
      exact if_neg fun h => hb (Fin.ext h.2)
    · intro h; exact absurd (Finset.mem_univ k) h
  · rw [if_neg hc]
    exact Finset.sum_eq_zero fun b _ => if_neg fun h => hc h.1

end Rows

/-! ## Scalars: operand `[N]`, indices `[E, 1]`, updates `[E]` -/

section Scalars
variable {N E w : Nat}

/-- The dimension numbers of a scalar scatter: no window axis; the operand's one axis is addressed by the index word. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1)

/-- The window starts at the update's index word, read signed. -/
theorem vecDims_start0 (j : (⟨1, ![E]⟩ : Shape).Idx) (idx : IVec ⟨2, ![E, 1]⟩ w) :
    (vecDims N E wf).start j idx 0 = rowWord idx (j 0) := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- There is no window coordinate. -/
theorem vecDims_window0 (j : (⟨1, ![E]⟩ : Shape).Idx) : (vecDims N E wf).window j 0 = 0 := by
  unfold ScatterDims.window
  rw [dif_neg (show ¬ (0 : Fin 1) ∈ (vecDims N E wf).sKept from by simp [ScatterDims.sKept, Shape.kept])]

/-- WHERE AN UPDATE LANDS: update `e` lands on element `i` exactly when its index word is `i`. -/
theorem vecDims_resultIdx_eq_some_iff (j : (⟨1, ![E]⟩ : Shape).Idx) (idx : IVec ⟨2, ![E, 1]⟩ w)
    (i : (⟨1, ![N]⟩ : Shape).Idx) :
    (vecDims N E wf).resultIdx? j idx = some i ↔ rowWord idx (j 0) = ((i 0).val : Int) := by
  have hi0 : (i 0).val < N := (i 0).isLt
  unfold ScatterDims.resultIdx?
  split
  · next h =>
    rw [Option.some.injEq]
    have h0 := h 0
    rw [vecDims_start0, vecDims_window0] at h0
    constructor
    · intro hi
      have e0 : ((vecDims N E wf).start j idx 0 + ((vecDims N E wf).window j 0 : Int)).toNat = (i 0).val :=
        congrArg (fun f => (f 0).val) hi
      rw [vecDims_start0, vecDims_window0] at e0
      omega
    · intro e0
      funext a
      refine Fin.ext ?_
      match a with
      | ⟨0, _⟩ =>
        show ((vecDims N E wf).start j idx 0 + ((vecDims N E wf).window j 0 : Int)).toNat = (i 0).val
        rw [vecDims_start0, vecDims_window0]; omega
  · next h =>
    constructor
    · intro hn; cases hn
    · intro e0
      refine absurd (fun a => ?_) h
      match a with
      | ⟨0, _⟩ =>
        show 0 ≤ (vecDims N E wf).start j idx 0 + ((vecDims N E wf).window j 0 : Int)
          ∧ (vecDims N E wf).start j idx 0 + ((vecDims N E wf).window j 0 : Int) < ((N : Nat) : Int)
        rw [vecDims_start0, vecDims_window0]; omega

/-- A rank-1 index set is its coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- THE SCALAR SCATTER READ AT `n`: the operand's element plus the updates whose index word is `n`. -/
theorem vecScatterAdd_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if rowWord idx e = (n.val : Int) then upd (ix1 e) else 0 := by
  unfold Ideal.hostScatterAdd
  congr 1
  rw [Finset.sum_filter, sum_idx1]
  refine Finset.sum_congr rfl fun e _ => ?_
  simp only [vecDims_resultIdx_eq_some_iff]
  rfl

end Scalars

end Idealize.ShloMosaic.ScatterAddAt

end
-- ==== Proof.HostStages.lean ====
/-
  The arrays the dense stage is launched on, against the reference's segment sums.

  Before the dense stage the program gathers the source rows `feat[src]`, appends a column of ones, and accumulates the
  65-wide rows by destination in ONE additive scatter; columns 0–63 of the result are the neighbour sums and column 64
  is the in-degree. The reference accumulates the 64-wide gathered rows and a vector of ones in TWO scatters. At the
  ideal instance an additive row scatter sends column `k` of the updates to column `k` of the operand and nowhere
  else, so

    merged[n, k]  = 0 + ∑ e, [dst e = n] · feat[src e, k]   (k < 64)  — the reference's neighbour sum at (n, k),
    merged[n, 64] = 0 + ∑ e, [dst e = n] · 1                          — the reference's degree at n,

  with the same zero, the same one and the same gathered rows on both sides. The bias is only reshaped `[64] → [1, 64]`.
-/
import proofs.«113126_j76682346102897_2_alg».proof.Proof.Gen.KernelIdeal.Frame
import proofs.«113126_j76682346102897_2_alg».proof.Proof.Gen.ReferenceIdeal.Read
import proofs.«113126_j76682346102897_2_alg».proof.Proof.LibScatterAdd
import Idealize.ShloMosaic.Lib.Pipeline.Value
import Idealize.ShloMosaic.Lib.ValueLayout
import Idealize.ShloMosaic.Lib.StableHlo.Run

noncomputable section

open scoped BigOperators

namespace Cert.KernelIdeal.HostStages

open Cert.KernelIdeal Cert.KernelIdeal.Gen Idealize.ShloMosaic Idealize.ShloMosaic.TcCoe Idealize.SL.Sem
open Idealize.ShloMosaic.StableHlo Idealize.ShloMosaic.ValueIdx Idealize.ShloMosaic.ScatterAddAt

/-! ## The merged scatter and its two slices, as functions of the argument arrays -/

/-- The gathered source rows `feat[src]` (a negative index wrapped once by the array's height first). -/
def gathered (x0 : (⟨S100000x64, .f32⟩ : BufTy).Contents (Elt Ideal)) (x1 : (⟨S1600000, .i32⟩ : BufTy).Contents (Elt Ideal)) :
    (⟨S1600000x64, .f32⟩ : BufTy).Contents (Elt Ideal) :=
  Host.gather gather_S100000x64_S1600000x1_S1600000x64_1_0_n_n_0_1_164 x0
    (broadcastInDim S1600000x1 ![0] bcast_S1600000_S1600000x1_0
      (select (cmpi .slt x1 (broadcastInDim S1600000 ![] bcast_S_S1600000 (constantI S_ 32 0#32)))
        (addi x1 (broadcastInDim S1600000 ![] bcast_S_S1600000 (constantI S_ 32 100000#32))) x1))

/-- The gathered rows with a column of ones appended: `[E, 65]`. -/
def withOnes (x0 : (⟨S100000x64, .f32⟩ : BufTy).Contents (Elt Ideal)) (x1 : (⟨S1600000, .i32⟩ : BufTy).Contents (Elt Ideal)) :
    (⟨S1600000x65, .f32⟩ : BufTy).Contents (Elt Ideal) :=
  concatenate S1600000x65 1 [⟨S1600000x64, gathered x0 x1⟩,
    ⟨S1600000x1, broadcastInDim S1600000x1 ![] bcast_S_S1600000x1 (constant (F := Ideal) S_ .f32 0x3F800000#32)⟩]
    concatenates_S1600000x64_S1600000x1_S1600000x65_d1

/-- The 65-wide rows accumulated by destination into zeros: `[N, 65]`. -/
def merged (x0 : (⟨S100000x64, .f32⟩ : BufTy).Contents (Elt Ideal)) (x1 x2 : (⟨S1600000, .i32⟩ : BufTy).Contents (Elt Ideal)) :
    (⟨S100000x65, .f32⟩ : BufTy).Contents (Elt Ideal) :=
  Host.scatterAdd scatter_S100000x65_S1600000x1_S1600000x65_1_0_0_1
    (broadcastInDim S100000x65 ![] bcast_S_S100000x65 (constant (F := Ideal) S_ .f32 0x00000000#32))
    (broadcastInDim S1600000x1 ![0] bcast_S1600000_S1600000x1_0 x2)
    (withOnes x0 x1)

/-- Columns 0–63 of the merged scatter: the neighbour sums. -/
def neighSum (x0 : (⟨S100000x64, .f32⟩ : BufTy).Contents (Elt Ideal)) (x1 x2 : (⟨S1600000, .i32⟩ : BufTy).Contents (Elt Ideal)) :
    (⟨S100000x64, .f32⟩ : BufTy).Contents (Elt Ideal) :=
  extractStridedSlice S100000x64 ![0, 0] (merged x0 x1 x2) slices_S100000x65_S100000x64_0_0

/-- Column 64 of the merged scatter: the in-degree, as a column. -/
def degCol (x0 : (⟨S100000x64, .f32⟩ : BufTy).Contents (Elt Ideal)) (x1 x2 : (⟨S1600000, .i32⟩ : BufTy).Contents (Elt Ideal)) :
    (⟨S100000x1, .f32⟩ : BufTy).Contents (Elt Ideal) :=
  extractStridedSlice S100000x1 ![0, 64] (merged x0 x1 x2) slices_S100000x65_S100000x1_0_64

/-! ## What the dense stage's windows 1, 2 and 5 stage -/

variable (m : (ℓ : Loc nD τ sig) → Buf (Elt Ideal) ℓ)

/-- Window 1's array at launch: the neighbour sums of the argument arrays. -/
theorem V_main_v12 (c : Dev nD) :
    (V m c main_v12 : S100000x64.Idx → EReal)
      = neighSum (m (c, Proc.devRef .tc main_arg0)) (m (c, Proc.devRef .tc main_arg1)) (m (c, Proc.devRef .tc main_arg2)) := by
  dsimp only [Gen.V, Gen.hostOps0]
  after_results
  rfl

/-- Window 2's array at launch: the degree column of the argument arrays. -/
theorem V_main_v13 (c : Dev nD) :
    (V m c main_v13 : S100000x1.Idx → EReal)
      = degCol (m (c, Proc.devRef .tc main_arg0)) (m (c, Proc.devRef .tc main_arg1)) (m (c, Proc.devRef .tc main_arg2)) := by
  dsimp only [Gen.V, Gen.hostOps0]
  after_results
  rfl

/-- Window 5's array at launch: the bias as one row. -/
theorem V_main_v14 (c : Dev nD) :
    (V m c main_v14 : S1x64.Idx → EReal)
      = shapeCast S1x64 (m (c, Proc.devRef .tc main_arg5) : S64.Idx → EReal) shapeCasts_S64_S1x64 := by
  dsimp only [Gen.V, Gen.hostOps0]
  after_results
  rfl

/-! ## The two slices are the reference's two segment sums -/

/-- Column `k < 64` as a column of the 65-wide rows. -/
abbrev widen (k : Fin 64) : Fin 65 := ⟨k.val, by omega⟩
/-- The appended column. -/
abbrev lastCol : Fin 65 := ⟨64, by decide⟩

/-- The gathered rows are the reference's. -/
theorem gathered_eq (x0 : (⟨S100000x64, .f32⟩ : BufTy).Contents (Elt Ideal)) (x1 : (⟨S1600000, .i32⟩ : BufTy).Contents (Elt Ideal)) :
    gathered x0 x1 = Cert.ReferenceIdeal.Read.val_main_v6 (F := Ideal) x0 x1 := rfl

/-- The destination words, as the scatters read them, are the reference's. -/
theorem dstWords_eq (x2 : (⟨S1600000, .i32⟩ : BufTy).Contents (Elt Ideal)) :
    (broadcastInDim S1600000x1 ![0] bcast_S1600000_S1600000x1_0 x2 : IVec S1600000x1 32)
      = Cert.ReferenceIdeal.Read.val_main_v8 (F := Ideal) x2 := rfl

/-- The program's 65-wide scatter is a row scatter. -/
theorem scatter65_eq (x : FVec Ideal S100000x65 .f32) (idx : IVec S1600000x1 32) (upd : FVec Ideal S1600000x65 .f32) :
    Host.scatterAdd scatter_S100000x65_S1600000x1_S1600000x65_1_0_0_1 x idx upd
      = Ideal.hostScatterAdd (rowDims 100000 65 1600000 (by decide)) x idx upd := rfl

/-- The reference's 64-wide scatter is a row scatter. -/
theorem scatter64_eq (x : FVec Ideal Cert.ReferenceIdeal.S100000x64 .f32) (idx : IVec Cert.ReferenceIdeal.S1600000x1 32)
    (upd : FVec Ideal Cert.ReferenceIdeal.S1600000x64 .f32) :
    Host.scatterAdd Cert.ReferenceIdeal.scatter_S100000x64_S1600000x1_S1600000x64_1_0_0_1 x idx upd
      = Ideal.hostScatterAdd (rowDims 100000 64 1600000 (by decide)) x idx upd := rfl

/-- The reference's scatter of ones is a scalar scatter. -/
theorem scatter1_eq (x : FVec Ideal Cert.ReferenceIdeal.S100000 .f32) (idx : IVec Cert.ReferenceIdeal.S1600000x1 32)
    (upd : FVec Ideal Cert.ReferenceIdeal.S1600000 .f32) :
    Host.scatterAdd Cert.ReferenceIdeal.scatter_S100000_S1600000x1_S1600000_n_0_0_1 x idx upd
      = Ideal.hostScatterAdd (vecDims 100000 1600000 (by decide)) x idx upd := rfl

/-- The merged scatter at `(n, k)`: the destination-`n` rows' column-`k` entries, summed onto zero. -/
theorem merged_apply (x0 : (⟨S100000x64, .f32⟩ : BufTy).Contents (Elt Ideal)) (x1 x2 : (⟨S1600000, .i32⟩ : BufTy).Contents (Elt Ideal))
    (n : Fin 100000) (k : Fin 65) :
    merged x0 x1 x2 (ix2 n k) = Ideal.ofBits .f32 0x00000000#32
      + ∑ e : Fin 1600000, if rowWord (broadcastInDim S1600000x1 ![0] bcast_S1600000_S1600000x1_0 x2 : IVec S1600000x1 32) e = (n.val : Int)
          then withOnes x0 x1 (ix2 e k) else 0 := by
  unfold merged
  exact (congrFun (scatter65_eq _ _ _) (ix2 n k)).trans (rowScatterAdd_apply _ _ _ _ n k)

/-- A column below 64 of the widened rows is the gathered rows' column. -/
theorem withOnes_left (x0 : (⟨S100000x64, .f32⟩ : BufTy).Contents (Elt Ideal)) (x1 : (⟨S1600000, .i32⟩ : BufTy).Contents (Elt Ideal))
    (e : Fin 1600000) (k : Fin 64) :
    withOnes x0 x1 (ix2 e (widen k)) = gathered x0 x1 (ix2 e k) := by
  unfold withOnes
  exact concatenate_pair_apply_left (t := S1600000x65) (s₁ := S1600000x64) (s₂ := S1600000x1) (1 : Fin 2) (gathered x0 x1) _
    concatenates_S1600000x64_S1600000x1_S1600000x65_d1 (ix2 e (widen k)) rfl (ix2 e k)
    (fun b => match b with
      | ⟨0, _⟩ => rfl
      | ⟨1, _⟩ => rfl)

/-- Column 64 of the widened rows is one. -/
theorem withOnes_right (x0 : (⟨S100000x64, .f32⟩ : BufTy).Contents (Elt Ideal)) (x1 : (⟨S1600000, .i32⟩ : BufTy).Contents (Elt Ideal))
    (e : Fin 1600000) :
    withOnes x0 x1 (ix2 e lastCol) = Ideal.ofBits .f32 0x3F800000#32 := by
  unfold withOnes
  refine (concatenate_pair_apply_right (t := S1600000x65) (s₁ := S1600000x64) (s₂ := S1600000x1) (1 : Fin 2) (gathered x0 x1)
    (broadcastInDim S1600000x1 ![] bcast_S_S1600000x1 (constant (F := Ideal) S_ .f32 0x3F800000#32))
    concatenates_S1600000x64_S1600000x1_S1600000x65_d1 (ix2 e lastCol) rfl rfl
    (ix2 e (⟨0, Nat.one_pos⟩ : Fin 1))
    (fun b hb => match b, hb with
      | ⟨0, _⟩, _ => rfl
      | ⟨1, _⟩, hb => absurd rfl hb)
    rfl).trans ?_
  rfl

/-- THE NEIGHBOUR SUMS ARE THE REFERENCE'S: column `k < 64` of the merged scatter receives exactly the gathered rows'
    column `k`, which is what the reference's 64-wide scatter accumulates there. -/
theorem neighSum_apply (x0 : (⟨S100000x64, .f32⟩ : BufTy).Contents (Elt Ideal)) (x1 x2 : (⟨S1600000, .i32⟩ : BufTy).Contents (Elt Ideal))
    (n : Fin 100000) (k : Fin 64) :
    neighSum x0 x1 x2 (ix2 n k) = Cert.ReferenceIdeal.Read.val_main_v9 (F := Ideal) x0 x1 x2 (ix2 n k) := by
  have hL : neighSum x0 x1 x2 (ix2 n k) = merged x0 x1 x2 (ix2 n (widen k)) := by
    unfold neighSum
    exact extractStridedSlice_apply (s := S100000x65) (t := S100000x64) _ _ slices_S100000x65_S100000x64_0_0 (ix2 n k) (ix2 n (widen k))
      (fun a => match a with
        | ⟨0, _⟩ => by show n.val = 0 + n.val; omega
        | ⟨1, _⟩ => by show k.val = 0 + k.val; omega)
  have hR : Cert.ReferenceIdeal.Read.val_main_v9 (F := Ideal) x0 x1 x2 (ix2 n k)
      = Ideal.ofBits .f32 0x00000000#32
        + ∑ e : Fin 1600000, if rowWord (Cert.ReferenceIdeal.Read.val_main_v8 (F := Ideal) x2) e = (n.val : Int)
            then Cert.ReferenceIdeal.Read.val_main_v6 (F := Ideal) x0 x1 (ix2 e k) else 0 := by
    unfold Cert.ReferenceIdeal.Read.val_main_v9
    exact (congrFun (scatter64_eq _ _ _) (ix2 n k)).trans (rowScatterAdd_apply _ _ _ _ n k)
  rw [hL, hR, merged_apply, dstWords_eq]
  refine congrArg (Ideal.ofBits .f32 0x00000000#32 + ·) (Finset.sum_congr rfl fun e _ => ?_)
  rw [withOnes_left, gathered_eq]

/-- THE DEGREE IS THE REFERENCE'S: column 64 of the merged scatter receives a one from every row with that destination,
    which is what the reference's scatter of a vector of ones accumulates. -/
theorem degCol_apply (x0 : (⟨S100000x64, .f32⟩ : BufTy).Contents (Elt Ideal)) (x1 x2 : (⟨S1600000, .i32⟩ : BufTy).Contents (Elt Ideal))
    (n : Fin 100000) :
    degCol x0 x1 x2 (ix2 n (⟨0, Nat.one_pos⟩ : Fin 1)) = Cert.ReferenceIdeal.Read.val_main_v13 (F := Ideal) x2 (ix1 n) := by
  have hL : degCol x0 x1 x2 (ix2 n (⟨0, Nat.one_pos⟩ : Fin 1)) = merged x0 x1 x2 (ix2 n lastCol) := by
    unfold degCol
    exact extractStridedSlice_apply (s := S100000x65) (t := S100000x1) _ _ slices_S100000x65_S100000x1_0_64 (ix2 n (⟨0, Nat.one_pos⟩ : Fin 1)) (ix2 n lastCol)
      (fun a => match a with
        | ⟨0, _⟩ => by show n.val = 0 + n.val; omega
        | ⟨1, _⟩ => by show 64 = 64 + 0; rfl)
  have hR : Cert.ReferenceIdeal.Read.val_main_v13 (F := Ideal) x2 (ix1 n)
      = Ideal.ofBits .f32 0x00000000#32
        + ∑ e : Fin 1600000, if rowWord (Cert.ReferenceIdeal.Read.val_main_v12 (F := Ideal) x2) e = (n.val : Int)
            then Cert.ReferenceIdeal.Read.val_main_v10 (F := Ideal) (ix1 e) else 0 := by
    unfold Cert.ReferenceIdeal.Read.val_main_v13
    exact (congrFun (scatter1_eq _ _ _) (ix1 n)).trans (vecScatterAdd_apply _ _ _ _ n)
  rw [hL, hR, merged_apply]
  refine congrArg (Ideal.ofBits .f32 0x00000000#32 + ·) (Finset.sum_congr rfl fun e _ => ?_)
  rw [withOnes_right]
  rfl

/-- The bias row at column `q` is the bias at `q`. -/
theorem biasRow_apply (x5 : S64.Idx → EReal) (q : Fin 64) :
    shapeCast S1x64 x5 shapeCasts_S64_S1x64 (ix2 (0 : Fin 1) q) = x5 (ix1 q) :=
  shapeCast_a_1a_apply x5 shapeCasts_S64_S1x64 (0 : Fin 1) q

end Cert.KernelIdeal.HostStages

end
-- ==== Proof.LibColumn.lean ====
/-
  A column broadcast along rows, read at an index.

  An `[a, 1]` array broadcast to `[a, b]` repeats each row's one entry across the row: at `(p, c)` it reads the
  operand at `(p, 0)`.
-/
import Idealize.ShloMosaic.Lib.Pipeline.Value
import Idealize.ShloMosaic.Lib.ValueIdx

noncomputable section

namespace Idealize.ShloMosaic.ColumnBroadcast

open Idealize.ShloMosaic Idealize.ShloMosaic.ValueIdx

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnBroadcast

end
-- ==== Proof.Payload.lean ====
/-
  The dense stage's body at one element.

  On a block of 4000 rows the body computes, from the block `x` of features, the block `s` of neighbour sums, the
  block `d` of degrees (one column), the two weight matrices `Ws`, `Wn` and the bias row `b`,

    out[p, q] = max ( ∑ k, x[p, k] · Ws[k, q]  +  ∑ k, (s[p, k] / max (d[p, 0], 1)) · Wn[k, q]  +  b[0, q] , 0 ).

  At the ideal instance the two narrowings to bf16 are the identity and each matrix product onto a zero accumulator is
  the plain sum over the contracted axis; the division is by the row's clamped degree, broadcast along the row.
-/
import proofs.«113126_j76682346102897_2_alg».proof.Proof.Gen.KernelIdeal.Skeleton
import proofs.«113126_j76682346102897_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Dense

open Cert.KernelIdeal Cert.KernelIdeal.Gen Idealize.ShloMosaic Idealize.ShloMosaic.TcCoe
open Idealize.ShloMosaic.ValueIdx Idealize.ShloMosaic.ColumnBroadcast

/-! ## The block matrix product as a sum over the contracted axis -/

theorem lhs_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide),
    dif_pos (show (0 : Fin S4000x64.rank) ∈ dot_S4000x64_S64x64_S4000x64_1_0_0_1_n_n.lhsNonContracting by decide)]
  rfl
theorem lhs_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide),
    dif_pos (show (1 : Fin S64x64.rank) ∈ dot_S4000x64_S64x64_S4000x64_1_0_0_1_n_n.rhsNonContracting by decide)]
  rfl

/-- A `[4000, 64] × [64, 64]` product onto a zero accumulator, at `(p, q)`: row `p` of the left operand against
    column `q` of the right. -/
theorem matmul_zero_apply {φ₁ φ₂ : FTy} (l : FVec Ideal S4000x64 φ₁) (r : FVec Ideal S64x64 φ₂) (p : Fin 4000) (q : Fin 64) :
    matmul dot_S4000x64_S64x64_S4000x64_1_0_0_1_n_n none l r (constant S4000x64 .f32 0x00000000#32) (ix2 p q)
      = ∑ k : Fin 64, l (ix2 p k) * r (ix2 k q) := by
  show FloatOps.matmul dot_S4000x64_S64x64_S4000x64_1_0_0_1_n_n none l r (constant S4000x64 .f32 0x00000000#32) (ix2 p q) = _
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k :=
    funext fun a => Fin.ext (by
      match a with
      | ⟨0, _⟩ => exact lhs_0 _ _
      | ⟨1, _⟩ => exact (lhs_1 _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q :=
    funext fun a => Fin.ext (by
      match a with
      | ⟨0, _⟩ => exact (rhs_0 _ _).trans hk
      | ⟨1, _⟩ => exact rhs_1 _ _)
  rw [el, er]

/-! ## The body's value at `(p, q)` -/

/-- The mean of the neighbours' features: the neighbour sum over the degree clamped below by one, the degree broadcast
    along the row. -/
theorem mean_apply (s : Vec Ideal S4000x64 .f32) (d : Vec Ideal S4000x1 .f32) (p : Fin 4000) (k : Fin 64) :
    (divf (shapeCast S4000x64 s shapeCasts_S4000x64_S4000x64)
        (broadcastTo S4000x64 (maximumf (shapeCast S4000x1 d shapeCasts_S4000x1_S4000x1)
          (broadcast S4000x1 (Scalar.ofBits (F := Ideal) .f32 0x3F800000#32))) broadcasts_S4000x1_S4000x64) : FVec Ideal S4000x64 .f32) (ix2 p k)
      = Ideal.div (s (ix2 p k)) (max (d (ix2 p (0 : Fin 1))) (Ideal.ofBits .f32 0x3F800000#32)) := by
  show Ideal.div (shapeCast S4000x64 s shapeCasts_S4000x64_S4000x64 (ix2 p k))
    (broadcastTo S4000x64 (maximumf (shapeCast S4000x1 d shapeCasts_S4000x1_S4000x1)
      (broadcast S4000x1 (Scalar.ofBits (F := Ideal) .f32 0x3F800000#32))) broadcasts_S4000x1_S4000x64 (ix2 p k)) = _
  rw [shapeCast_self, broadcastTo_a1_ab_apply, shapeCast_self]
  rfl

/-- The bias row broadcast over the block, at `(p, q)`: the bias at `q`. -/
theorem biasBlock_apply (b : Vec Ideal S1x64 .f32) (p : Fin 4000) (q : Fin 64) :
    (broadcastTo S4000x64 (shapeCast S1x64 b shapeCasts_S1x64_S1x64) broadcasts_S1x64_S4000x64 : FVec Ideal S4000x64 .f32) (ix2 p q)
      = b (ix2 (0 : Fin 1) q) := by
  rw [broadcastTo_1b_ab_apply, shapeCast_self]

/-- THE BODY AT `(p, q)`. -/
theorem pay_apply (x s : Vec Ideal S4000x64 .f32) (d : Vec Ideal S4000x1 .f32) (Ws Wn : Vec Ideal S64x64 .f32)
    (b : Vec Ideal S1x64 .f32) (p : Fin 4000) (q : Fin 64) :
    k0_pay1 x s d Ws Wn b (ix2 p q)
      = max ((∑ k : Fin 64, x (ix2 p k) * Ws (ix2 k q)
              + ∑ k : Fin 64, Ideal.div (s (ix2 p k)) (max (d (ix2 p (0 : Fin 1))) (Ideal.ofBits .f32 0x3F800000#32)) * Wn (ix2 k q))
            + b (ix2 (0 : Fin 1) q)) (Ideal.ofBits .f32 0x00000000#32) := by
  have e1 := matmul_zero_apply (truncf .bf16 x bitsLt_bf16_f32 : FVec Ideal S4000x64 .bf16)
    (truncf .bf16 Ws bitsLt_bf16_f32 : FVec Ideal S64x64 .bf16) p q
  have e2 := matmul_zero_apply
    (truncf .bf16 (divf (shapeCast S4000x64 s shapeCasts_S4000x64_S4000x64)
        (broadcastTo S4000x64 (maximumf (shapeCast S4000x1 d shapeCasts_S4000x1_S4000x1)
          (broadcast S4000x1 (Scalar.ofBits (F := Ideal) .f32 0x3F800000#32))) broadcasts_S4000x1_S4000x64)) bitsLt_bf16_f32 : FVec Ideal S4000x64 .bf16)
    (truncf .bf16 Wn bitsLt_bf16_f32 : FVec Ideal S64x64 .bf16) p q
  refine congrArg₂ max (congrArg₂ (· + ·) (congrArg₂ (· + ·) e1 (e2.trans ?_)) (biasBlock_apply b p q)) rfl
  exact Finset.sum_congr rfl fun k _ => congrArg (· * Wn (ix2 k q)) (mean_apply s d p k)

end Cert.KernelIdeal.Dense

end
-- ==== Proof.RefAt.lean ====
/-
  The reference at one element.

  The reference computes, on the whole arrays,

    out[n, q] = max ( ∑ k, feat[n, k] · Ws[k, q]  +  ∑ k, (S[n, k] / max (deg[n], 1)) · Wn[k, q]  +  bias[q] , 0 )

  where `S` is its neighbour-sum scatter and `deg` its degree scatter. This file reads the reference's stages at
  `(n, q)` down to that formula, keeping `S` and `deg` as the reference's own stages.
-/
import proofs.«113126_j76682346102897_2_alg».proof.Proof.Gen.ReferenceIdeal.Read
import Idealize.ShloMosaic.Lib.ValueIdx

noncomputable section

open scoped BigOperators

namespace Cert.ReferenceIdeal.At

open Cert.ReferenceIdeal Cert.ReferenceIdeal.Gen Cert.ReferenceIdeal.Read Idealize.ShloMosaic Idealize.ShloMosaic.ValueIdx

/-! ## The index maps of the reference's layout operations, in coordinates -/

theorem lidx19 (n : Fin 100000) (q k : Fin 64) : lidx_main_v19 (ix2 n q) k = ix2 n k :=
  funext fun a => Fin.ext (by match a with | ⟨0, _⟩ => rfl | ⟨1, _⟩ => rfl)
theorem ridx19 (n : Fin 100000) (q k : Fin 64) : ridx_main_v19 (ix2 n q) k = ix2 k q :=
  funext fun a => Fin.ext (by match a with | ⟨0, _⟩ => rfl | ⟨1, _⟩ => rfl)
theorem lidx20 (n : Fin 100000) (q k : Fin 64) : lidx_main_v20 (ix2 n q) k = ix2 n k :=
  funext fun a => Fin.ext (by match a with | ⟨0, _⟩ => rfl | ⟨1, _⟩ => rfl)
theorem ridx20 (n : Fin 100000) (q k : Fin 64) : ridx_main_v20 (ix2 n q) k = ix2 k q :=
  funext fun a => Fin.ext (by match a with | ⟨0, _⟩ => rfl | ⟨1, _⟩ => rfl)
theorem idx_deg (n : Fin 100000) (k : Fin 64) : idx_main_v16 (idx_main_v17 (ix2 n k)) = ix1 n :=
  funext fun a => Fin.ext (by match a with | ⟨0, _⟩ => rfl)
theorem idx_bias (n : Fin 100000) (q : Fin 64) : idx_main_v22 (idx_main_v23 (ix2 n q)) = ix1 q :=
  funext fun a => Fin.ext (by match a with | ⟨0, _⟩ => rfl)

/-! ## The stages at an index -/

/-- The clamped degree, broadcast along the row: at `(n, k)` it is `max (deg n) 1`. -/
theorem clampedDeg_apply (x2 : (⟨S1600000, .i32⟩ : BufTy).Contents (Elt Ideal)) (n : Fin 100000) (k : Fin 64) :
    val_main_v17 (F := Ideal) x2 (ix2 n k) = max (val_main_v13 (F := Ideal) x2 (ix1 n)) (Ideal.ofBits .f32 0x3F800000#32) := by
  rw [val_main_v17_apply, val_main_v16_apply, idx_deg, val_main_v15_apply, val_main_v14_apply, val_main_cst_3_apply]
  rfl

/-- The mean of the neighbours' features at `(n, k)`. -/
theorem mean_apply (x0 : (⟨S100000x64, .f32⟩ : BufTy).Contents (Elt Ideal)) (x1 x2 : (⟨S1600000, .i32⟩ : BufTy).Contents (Elt Ideal))
    (n : Fin 100000) (k : Fin 64) :
    val_main_v18 (F := Ideal) x0 x1 x2 (ix2 n k)
      = Ideal.div (val_main_v9 (F := Ideal) x0 x1 x2 (ix2 n k)) (max (val_main_v13 (F := Ideal) x2 (ix1 n)) (Ideal.ofBits .f32 0x3F800000#32)) := by
  rw [val_main_v18_apply, clampedDeg_apply]
  rfl

/-- THE REFERENCE AT `(n, q)`. -/
theorem out_apply (x0 : (⟨S100000x64, .f32⟩ : BufTy).Contents (Elt Ideal)) (x1 x2 : (⟨S1600000, .i32⟩ : BufTy).Contents (Elt Ideal))
    (x3 x4 : (⟨S64x64, .f32⟩ : BufTy).Contents (Elt Ideal)) (x5 : (⟨S64, .f32⟩ : BufTy).Contents (Elt Ideal)) (n : Fin 100000) (q : Fin 64) :
    val_main_v25 (F := Ideal) x0 x1 x2 x3 x4 x5 (ix2 n q)
      = max ((∑ k : Fin 64, x0 (ix2 n k) * x3 (ix2 k q)
              + ∑ k : Fin 64, Ideal.div (val_main_v9 (F := Ideal) x0 x1 x2 (ix2 n k))
                  (max (val_main_v13 (F := Ideal) x2 (ix1 n)) (Ideal.ofBits .f32 0x3F800000#32)) * x4 (ix2 k q))
            + x5 (ix1 q)) (Ideal.ofBits .f32 0x00000000#32) := by
  rw [val_main_v25_apply, val_main_v24_apply, val_main_v21_apply, val_main_v19_apply, val_main_v20_apply, val_main_v23_apply,
    val_main_v22_apply, idx_bias, val_main_call0_v0_apply, val_main_call0_cst_apply]
  simp only [lidx19, ridx19, lidx20, ridx20, mean_apply]
  rfl

end Cert.ReferenceIdeal.At

end
-- ==== Proof.KernelValue.lean ====
/-
  The dense stage's result array as one function of the argument arrays.

  The output has 100000 rows cut into 25 blocks of 4000; grid point `t` reads rows `4000·t … 4000·t + 3999` of the
  features, of the neighbour sums and of the degree column, the two weight matrices and the bias row whole, and writes
  the same rows of the result. Row `p` of block `t` is row `n = 4000·t + p` of the arrays, so by the body's value
  at `(p, q)`, the launch arrays' contents (the neighbour sums and the degree are the reference's two segment sums) and
  the reference's value at `(n, q)`, what point `t` writes back is block `t` of the reference's result taken as a
  function of the same argument arrays. The 25 blocks tile the rows, so the whole result array is that function.
-/
import proofs.«113126_j76682346102897_2_alg».proof.Proof.Gen.KernelIdeal.Value
import proofs.«113126_j76682346102897_2_alg».proof.Proof.HostStages
import proofs.«113126_j76682346102897_2_alg».proof.Proof.Payload
import proofs.«113126_j76682346102897_2_alg».proof.Proof.RefAt
import Idealize.ShloMosaic.Lib.Pipeline.Value
import Idealize.ShloMosaic.Lib.ValueIdx

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.HostStages Cert.KernelIdeal.Dense

variable (m : (ℓ : Loc nD τ sig) → Buf (Elt Ideal) ℓ) (ρ : Dev nD → PrngReg)

/-- The result as a function of the argument arrays: the reference's composed function, at this program's arguments. -/
def result (c : Dev nD) : S100000x64.Idx → EReal :=
  Cert.ReferenceIdeal.Read.val_main_v25 (F := Ideal)
    (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5))

/-! ## One element of one block -/

/-- If the loaded blocks hold, on row `p` and column `q`, row `n` of the features, of the reference's neighbour sums
    and of its degree, the weights and the bias, then the body's value at `(p, q)` is the reference's at `(n, q)`. -/
theorem point_eq (x s : Vec Ideal S4000x64 .f32) (d : Vec Ideal S4000x1 .f32) (Ws Wn : Vec Ideal S64x64 .f32) (b : Vec Ideal S1x64 .f32)
    (x0 : (⟨Cert.ReferenceIdeal.S100000x64, .f32⟩ : BufTy).Contents (Elt Ideal))
    (x1 x2 : (⟨Cert.ReferenceIdeal.S1600000, .i32⟩ : BufTy).Contents (Elt Ideal))
    (x3 x4 : (⟨Cert.ReferenceIdeal.S64x64, .f32⟩ : BufTy).Contents (Elt Ideal))
    (x5 : (⟨Cert.ReferenceIdeal.S64, .f32⟩ : BufTy).Contents (Elt Ideal))
    (n : Fin 100000) (p : Fin 4000) (q : Fin 64)
    (hx : ∀ k : Fin 64, x (ix2 p k) = x0 (ix2 n k))
    (hs : ∀ k : Fin 64, s (ix2 p k) = Cert.ReferenceIdeal.Read.val_main_v9 (F := Ideal) x0 x1 x2 (ix2 n k))
    (hd : d (ix2 p (0 : Fin 1)) = Cert.ReferenceIdeal.Read.val_main_v13 (F := Ideal) x2 (ix1 n))
    (hWs : ∀ k : Fin 64, Ws (ix2 k q) = x3 (ix2 k q))
    (hWn : ∀ k : Fin 64, Wn (ix2 k q) = x4 (ix2 k q))
    (hb : b (ix2 (0 : Fin 1) q) = x5 (ix1 q)) :
    k0_pay1 x s d Ws Wn b (ix2 p q) = Cert.ReferenceIdeal.Read.val_main_v25 (F := Ideal) x0 x1 x2 x3 x4 x5 (ix2 n q) := by
  rw [pay_apply, Cert.ReferenceIdeal.At.out_apply, hd, hb]
  simp only [hx, hs, hWs, hWn]

/-! ## Where a block sits in its array -/

/-- The printed index maps, decided over the 25 grid points: the row-blocked windows are at block row `t`, the whole
    windows at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem hz : (![0, 0] : Fin 2 → Nat) = fun _ => 0 := funext fun a => by fin_cases a <;> rfl

/-! ## A block read off an arbitrary array -/

/-- Row `p` of block `t` of a row-blocked `[100000, 64]` array is its row `4000·t + p` (windows 0, 1 and 6 share the
    index map; stated for window 0's). -/
theorem read_rows0 (t : Fin cfg0.N) (A : S100000x64.Idx → EReal) (p : Fin 4000) (k : Fin 64) (n : Fin 100000)
    (hn : n.val = t.val * 4000 + p.val) : ((cfg0.win 0).blk t).view.read (Elt Ideal) A (ix2 p k) = A (ix2 n k) := by
  obtain ⟨e0, e1, -⟩ := idx_facts t
  show A (((cfg0.win 0).blk t).view.emb (ix2 p k)) = A (ix2 n k)
  refine congrArg A (funext fun a => Fin.ext ?_)
  match a with
  | ⟨0, _⟩ => show win0_0.index t (0 : Fin 2) * 4000 + 1 * p.val = n.val; omega
  | ⟨1, _⟩ => show win0_0.index t (1 : Fin 2) * 64 + 1 * k.val = k.val; omega

theorem read_rows1 (t : Fin cfg0.N) (A : S100000x64.Idx → EReal) (p : Fin 4000) (k : Fin 64) (n : Fin 100000)
    (hn : n.val = t.val * 4000 + p.val) : ((cfg0.win 1).blk t).view.read (Elt Ideal) A (ix2 p k) = A (ix2 n k) := by
  obtain ⟨-, -, e0, e1, -⟩ := idx_facts t
  show A (((cfg0.win 1).blk t).view.emb (ix2 p k)) = A (ix2 n k)
  refine congrArg A (funext fun a => Fin.ext ?_)
  match a with
  | ⟨0, _⟩ => show win0_1.index t (0 : Fin 2) * 4000 + 1 * p.val = n.val; omega
  | ⟨1, _⟩ => show win0_1.index t (1 : Fin 2) * 64 + 1 * k.val = k.val; omega

/-- Row `p` of block `t` of the `[100000, 1]` column is its row `4000·t + p`. -/
theorem read_rows2 (t : Fin cfg0.N) (A : S100000x1.Idx → EReal) (p : Fin 4000) (n : Fin 100000)
    (hn : n.val = t.val * 4000 + p.val) :
    ((cfg0.win 2).blk t).view.read (Elt Ideal) A (ix2 p (0 : Fin 1)) = A (ix2 n (⟨0, Nat.one_pos⟩ : Fin 1)) := by
  obtain ⟨-, -, -, -, e0, e1, -⟩ := idx_facts t
  show A (((cfg0.win 2).blk t).view.emb (ix2 p (0 : Fin 1))) = A (ix2 n (⟨0, Nat.one_pos⟩ : Fin 1))
  refine congrArg A (funext fun a => Fin.ext ?_)
  match a with
  | ⟨0, _⟩ => show win0_2.index t (0 : Fin 2) * 4000 + 1 * p.val = n.val; omega
  | ⟨1, _⟩ => show win0_2.index t (1 : Fin 2) * 1 + 1 * 0 = 0; omega

/-- The one block of a whole `[64, 64]` window is the array. -/
theorem read_whole3 (t : Fin cfg0.N) (A : S64x64.Idx → EReal) (k q : Fin 64) :
    ((cfg0.win 3).blk t).view.read (Elt Ideal) A (ix2 k q) = A (ix2 k q) := by
  obtain ⟨-, -, -, -, -, -, e0, e1, -⟩ := idx_facts t
  show A (((cfg0.win 3).blk t).view.emb (ix2 k q)) = A (ix2 k q)
  refine congrArg A (funext fun a => Fin.ext ?_)
  match a with
  | ⟨0, _⟩ => show win0_3.index t (0 : Fin 2) * 64 + 1 * k.val = k.val; omega
  | ⟨1, _⟩ => show win0_3.index t (1 : Fin 2) * 64 + 1 * q.val = q.val; omega

theorem read_whole4 (t : Fin cfg0.N) (A : S64x64.Idx → EReal) (k q : Fin 64) :
    ((cfg0.win 4).blk t).view.read (Elt Ideal) A (ix2 k q) = A (ix2 k q) := by
  obtain ⟨-, -, -, -, -, -, -, -, e0, e1, -⟩ := idx_facts t
  show A (((cfg0.win 4).blk t).view.emb (ix2 k q)) = A (ix2 k q)
  refine congrArg A (funext fun a => Fin.ext ?_)
  match a with
  | ⟨0, _⟩ => show win0_4.index t (0 : Fin 2) * 64 + 1 * k.val = k.val; omega
  | ⟨1, _⟩ => show win0_4.index t (1 : Fin 2) * 64 + 1 * q.val = q.val; omega

/-- The one block of the whole `[1, 64]` window is the row. -/
theorem read_whole5 (t : Fin cfg0.N) (A : S1x64.Idx → EReal) (q : Fin 64) :
    ((cfg0.win 5).blk t).view.read (Elt Ideal) A (ix2 (0 : Fin 1) q) = A (ix2 (0 : Fin 1) q) := by
  obtain ⟨-, -, -, -, -, -, -, -, -, -, e0, e1, -⟩ := idx_facts t
  show A (((cfg0.win 5).blk t).view.emb (ix2 (0 : Fin 1) q)) = A (ix2 (0 : Fin 1) q)
  refine congrArg A (funext fun a => Fin.ext ?_)
  match a with
  | ⟨0, _⟩ => show win0_5.index t (0 : Fin 2) * 1 + 1 * 0 = 0; omega
  | ⟨1, _⟩ => show win0_5.index t (1 : Fin 2) * 64 + 1 * q.val = q.val; omega

/-- A block-shaped value `B` that agrees, row `p` with row `4000·t + p`, with an array `R` is block `t` of `R`. -/
theorem block_eq_read (t : Fin cfg0.N) (B : Vec Ideal S4000x64 .f32) (R : S100000x64.Idx → EReal)
    (h : ∀ (p : Fin 4000) (q : Fin 64) (n : Fin 100000), n.val = t.val * 4000 + p.val → B (ix2 p q) = R (ix2 n q)) :
    (cfg0.win 6).cut (grid0.coords t) B = ((cfg0.win 6).blk t).view.read (Elt Ideal) R := by
  funext j
  obtain ⟨p, q, rfl⟩ : ∃ (p : Fin 4000) (q : Fin 64), j = ix2 p q := ⟨j 0, j 1, eq_ix2 j⟩
  obtain ⟨-, -, -, -, -, -, -, -, -, -, -, -, e0, e1⟩ := idx_facts t
  have ht : t.val < 25 := t.isLt
  have hp : p.val < 4000 := p.isLt
  show B (ix2 p q) = R (((cfg0.win 6).blk t).view.emb (ix2 p q))
  rw [h p q ⟨t.val * 4000 + p.val, by omega⟩ rfl]
  refine congrArg R (funext fun a => Fin.ext ?_)
  match a with
  | ⟨0, _⟩ => show t.val * 4000 + p.val = win0_6.index t (0 : Fin 2) * 4000 + 1 * p.val; omega
  | ⟨1, _⟩ => show q.val = win0_6.index t (1 : Fin 2) * 64 + 1 * q.val; omega

/-- The body's one store covers its buffer: what it leaves there is its payload. -/
theorem out_eq (x0 x1 : Vec Ideal S4000x64 .f32) (x2 : Vec Ideal S4000x1 .f32) (x3 x4 : Vec Ideal S64x64 .f32) (x5 : Vec Ideal S1x64 .f32) :
    out0_6 x0 x1 x2 x3 x4 x5 = k0_pay1 x0 x1 x2 x3 x4 x5 := by
  unfold out0_6
  rw [View.canon_unit_zero hz]
  simp only [View.ld_unit_zero (S := S4000x64) hz, View.ld_unit_zero (S := S4000x1) hz, View.ld_unit_zero (S := S64x64) hz,
    View.ld_unit_zero (S := S1x64) hz]

/-! ## The six input blocks at point `t` -/

/-- Block `t` of the features at `(p, k)` is the features at `(4000·t + p, k)`. -/
theorem blk0_apply (c : Dev nD) (t : Fin cfg0.N) (p : Fin 4000) (k : Fin 64) (n : Fin 100000) (hn : n.val = t.val * 4000 + p.val) :
    iblk m c 0 t (ix2 p k) = m (c, Proc.devRef .tc main_arg0) (ix2 n k) := by
  unfold iblk
  rw [show V m c (Pipeline.arrRef spec0 0) = m ((c : Thread nD τ).loc main_arg0) from V_main_arg0 m c]
  exact read_rows0 t _ p k n hn

/-- Block `t` of the neighbour sums at `(p, k)` is the reference's neighbour sum at `(4000·t + p, k)`. -/
theorem blk1_apply (c : Dev nD) (t : Fin cfg0.N) (p : Fin 4000) (k : Fin 64) (n : Fin 100000) (hn : n.val = t.val * 4000 + p.val) :
    iblk m c 1 t (ix2 p k) = Cert.ReferenceIdeal.Read.val_main_v9 (F := Ideal)
      (m (c, Proc.devRef .tc main_arg0)) (m (c, Proc.devRef .tc main_arg1)) (m (c, Proc.devRef .tc main_arg2)) (ix2 n k) := by
  unfold iblk
  rw [show V m c (Pipeline.arrRef spec0 1) = neighSum (m (c, Proc.devRef .tc main_arg0)) (m (c, Proc.devRef .tc main_arg1)) (m (c, Proc.devRef .tc main_arg2)) from V_main_v12 m c]
  exact (read_rows1 t _ p k n hn).trans (neighSum_apply _ _ _ n k)

/-- Block `t` of the degree column at `(p, 0)` is the reference's degree at `4000·t + p`. -/
theorem blk2_apply (c : Dev nD) (t : Fin cfg0.N) (p : Fin 4000) (n : Fin 100000) (hn : n.val = t.val * 4000 + p.val) :
    iblk m c 2 t (ix2 p (0 : Fin 1)) = Cert.ReferenceIdeal.Read.val_main_v13 (F := Ideal) (m (c, Proc.devRef .tc main_arg2)) (ix1 n) := by
  unfold iblk
  rw [show V m c (Pipeline.arrRef spec0 2) = degCol (m (c, Proc.devRef .tc main_arg0)) (m (c, Proc.devRef .tc main_arg1)) (m (c, Proc.devRef .tc main_arg2)) from V_main_v13 m c]
  exact (read_rows2 t _ p n hn).trans (degCol_apply _ _ _ n)

/-- The self weights' one block is the whole matrix. -/
theorem blk3_apply (c : Dev nD) (t : Fin cfg0.N) (k q : Fin 64) :
    iblk m c 3 t (ix2 k q) = m (c, Proc.devRef .tc main_arg3) (ix2 k q) := by
  unfold iblk
  rw [show V m c (Pipeline.arrRef spec0 3) = m ((c : Thread nD τ).loc main_arg3) from V_main_arg3 m c]
  exact read_whole3 t _ k q

/-- The neighbour weights' one block is the whole matrix. -/
theorem blk4_apply (c : Dev nD) (t : Fin cfg0.N) (k q : Fin 64) :
    iblk m c 4 t (ix2 k q) = m (c, Proc.devRef .tc main_arg4) (ix2 k q) := by
  unfold iblk
  rw [show V m c (Pipeline.arrRef spec0 4) = m ((c : Thread nD τ).loc main_arg4) from V_main_arg4 m c]
  exact read_whole4 t _ k q

/-- The bias row's one block at `(0, q)` is the bias at `q`. -/
theorem blk5_apply (c : Dev nD) (t : Fin cfg0.N) (q : Fin 64) :
    iblk m c 5 t (ix2 (0 : Fin 1) q) = m (c, Proc.devRef .tc main_arg5) (ix1 q) := by
  unfold iblk
  rw [show V m c (Pipeline.arrRef spec0 5) = shapeCast S1x64 (m (c, Proc.devRef .tc main_arg5) : S64.Idx → EReal) shapeCasts_S64_S1x64 from V_main_v14 m c]
  exact (read_whole5 t _ q).trans (biasRow_apply _ q)

/-! ## What a point writes back, the cover, the whole array -/

/-- WHAT POINT `t` WRITES BACK is block `t` of `result`. -/
theorem flushed_eq (c : Dev nD) (t : Fin cfg0.N) :
    (dats m 0 c).flushed 6 t = ((cfg0.win 6).blk t).view.read (Elt Ideal) (result m c) := by
  rw [Value.flushed6, out_eq]
  refine block_eq_read t _ (result m c) fun p q n hn => ?_
  unfold result
  exact point_eq (iblk m c 0 t) (iblk m c 1 t) (iblk m c 2 t) (iblk m c 3 t) (iblk m c 4 t) (iblk m c 5 t)
    (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5)) n p q
    (fun k => blk0_apply m c t p k n hn) (fun k => blk1_apply m c t p k n hn) (blk2_apply m c t p n hn)
    (fun k => blk3_apply m c t k q) (fun k => blk4_apply m c t k q) (blk5_apply m c t q)

/-- An index of the array is in point `t`'s block iff each coordinate is in the block's range on its axis. -/
theorem mem_blk (t : Fin cfg0.N) (i : S100000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v15).slice (win0_6.rect t)).set ↔ _
  rw [View.set_slice_whole, Rect.mem_set_unit]
  exact Iff.rfl

/-- Every row is in the block of the point `row / 4000`. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  let t : Fin cfg0.N := ⟨(i 0).val / 4000, by show (i 0).val / 4000 < 25; omega⟩
  obtain ⟨-, -, -, -, -, -, -, -, -, -, -, -, e0, e1⟩ := idx_facts t
  have htv : t.val = (i 0).val / 4000 := rfl
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 64 ≤ (i 1).val ∧ (i 1).val < win0_6.index t (1 : Fin 2) * 64 + 64; omega

/-- THE RESULT ARRAY after the run is `result`. -/
theorem final (c : Dev nD) : (dats m 0 c).arrAt 6 cfg0.N = result m c :=
  (dats m 0 c).arrAt_eq_of_cover 6 (result m c) (fun t _ => flushed_eq m c t) cover

/-- The run, with the result array at `result` and the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.lean ====
/-
  The GraphSAGE layer with mean aggregation: the fused program against its plain reference, over the extended reals.

  For features `feat : [100000, 64]`, edges `(src e, dst e)`, `e < 1600000`, weights `Ws, Wn : [64, 64]` and a bias
  `b : [64]`, both programs compute

    out[n, q] = max ( ∑ k, feat[n, k] · Ws[k, q]  +  ∑ k, (S[n, k] / max (deg n, 1)) · Wn[k, q]  +  b[q] , 0 ),
    S[n, k] = ∑ e, [dst e = n] · feat[src e, k],      deg n = ∑ e, [dst e = n] · 1.

  The reference forms `S` and `deg` by two additive scatters. The fused program appends a column of ones to the
  gathered rows, forms ONE 65-wide additive scatter, and slices it back into `S` (columns 0–63) and `deg` (column 64);
  an additive row scatter sends each update column to the same operand column only, so the slices are the reference's
  `S` and `deg` (Proof/LibScatterAdd.lean, Proof/HostStages.lean). The dense stage then runs as a kernel over 25
  blocks of 4000 rows; each block's rows are the reference's rows (Proof/Payload.lean, Proof/RefAt.lean), and the blocks
  tile the result (Proof/KernelValue.lean). No step uses that the inputs are finite: sums are only re-indexed, and
  the two sides apply the same operations to the same operands.

  The three frames are the generated ones (the reference's is its generated run with the result dropped); the
  idealization rewrote nothing, so `preserves` is trivial.
-/
import proofs.«113126_j76682346102897_2_alg».proof.Defs
import proofs.«113126_j76682346102897_2_alg».proof.Proof.Gen.Kernel
import proofs.«113126_j76682346102897_2_alg».proof.Proof.Gen.Kernel.Skeleton
import proofs.«113126_j76682346102897_2_alg».proof.Proof.Gen.Kernel.Launch
import proofs.«113126_j76682346102897_2_alg».proof.Proof.Gen.Kernel.Points
import proofs.«113126_j76682346102897_2_alg».proof.Proof.Gen.Kernel.Frame
import proofs.«113126_j76682346102897_2_alg».proof.Proof.Gen.KernelIdeal
import proofs.«113126_j76682346102897_2_alg».proof.Proof.Gen.KernelIdeal.Skeleton
import proofs.«113126_j76682346102897_2_alg».proof.Proof.Gen.KernelIdeal.Launch
import proofs.«113126_j76682346102897_2_alg».proof.Proof.Gen.KernelIdeal.Points
import proofs.«113126_j76682346102897_2_alg».proof.Proof.Gen.KernelIdeal.Frame
import proofs.«113126_j76682346102897_2_alg».proof.Proof.Gen.ReferenceIdeal
import proofs.«113126_j76682346102897_2_alg».proof.Proof.Gen.Pre_finite_inputs
import proofs.«113126_j76682346102897_2_alg».proof.Proof.Gen.KernelIdeal.Value
import proofs.«113126_j76682346102897_2_alg».proof.Proof.Gen.ReferenceIdeal.Run
import proofs.«113126_j76682346102897_2_alg».proof.Proof.Gen.ReferenceIdeal.Read
import proofs.«113126_j76682346102897_2_alg».proof.Proof.KernelValue
import Idealize.ShloMosaic.Adequacy
import Idealize.ShloMosaic.Init

noncomputable section

namespace Cert.Proof

open Idealize.ShloMosaic Idealize.SL.Sem

/-- The word-level program runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the fused program's is the
    reference's composed function of ITS arguments (`Whole.run`), the reference's is that function of its own, and the
    arguments agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.ReferenceIdeal.Read.val_main_v25_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
